-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x4096 : Shape := ⟨3, ![64, 512, 4096]⟩
abbrev S64x512 : Shape := ⟨2, ![64, 512]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S64x512x4096 : S_.BroadcastsInDim S64x512x4096 (![] : Fin 0 → Fin S64x512x4096.rank)
  reducesTo_S64x512x4096_S_d0_1_2 : S64x512x4096.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x512x4096 .f32) (main_arg1 : FVec F S64x512 .f32) (main_arg2 : FVec F S64 .f32) (main_arg3 : FVec F S512x64 .f32) (main_arg4 : FVec F S512 .f32) : IVec S_ 1 :=
  let main_v0 : FVec F S64x512x4096 .f32 := Host.absf main_arg0
  let main_cst : FVec F S_ .f32 := constant S_ .f32 0x7F800000#32
  let main_v1 : FVec F S64x512x4096 .f32 := broadcastInDim S64x512x4096 ![] bcast_S_S64x512x4096 main_cst
  let main_v2 : IVec S64x512x4096 1 := cmpf .olt main_v0 main_v1
  let main_c : IVec S_ 1 := constantI S_ 1 1#1
  let main_v3 : IVec S_ 1 := (fun x v => Host.reduce IntOp.andi x v reducesTo_S64x512x4096_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S64x512x4096 : Shape := ⟨3, ![64, 512, 4096]⟩
abbrev S64x512 : Shape := ⟨2, ![64, 512]⟩
abbrev S64 : Shape := ⟨1, ![64]⟩
abbrev S512x64 : Shape := ⟨2, ![512, 64]⟩
abbrev S512 : Shape := ⟨1, ![512]⟩
abbrev S8x512x1024 : Shape := ⟨3, ![8, 512, 1024]⟩
abbrev S8x512 : Shape := ⟨2, ![8, 512]⟩
abbrev S64x64 : Shape := ⟨2, ![64, 64]⟩
abbrev S1x64 : Shape := ⟨2, ![1, 64]⟩
abbrev S_ : Shape := ⟨0, ![]⟩
abbrev S1x512 : Shape := ⟨2, ![1, 512]⟩
abbrev S8x512x512 : Shape := ⟨3, ![8, 512, 512]⟩
abbrev S8x512x1 : Shape := ⟨3, ![8, 512, 1]⟩

abbrev nBuf : Space → Nat
  | .hbm => 28
  | .vmem => 10
  | .smem => 0
  | _ => 0

abbrev bufTy : (tb : Table) → Fin (tcTables nBuf tb) → BufTy
  | .hbm, ⟨0, _⟩ => ⟨S64x512x4096, .f32⟩
  | .hbm, ⟨1, _⟩ => ⟨S64x512, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S64x512, .f32⟩
  | .hbm, ⟨6, _⟩ => ⟨S512x64, .f32⟩
  | .hbm, ⟨7, _⟩ => ⟨S64x64, .f32⟩
  | .hbm, ⟨8, _⟩ => ⟨S1x64, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x512, .f32⟩
  | .hbm, ⟨15, _⟩ => ⟨S64x512, .f32⟩
  | .hbm, ⟨16, _⟩ => ⟨S1x512, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512x4096, .f32⟩
  | .local _ .vmem, ⟨0, _⟩ => ⟨S8x512x1024, .f32⟩
  | .local _ .vmem, ⟨1, _⟩ => ⟨S8x512x1024, .f32⟩
  | .local _ .vmem, ⟨2, _⟩ => ⟨S8x512, .f32⟩
  | .local _ .vmem, ⟨3, _⟩ => ⟨S8x512, .f32⟩
  | .local _ .vmem, ⟨4, _⟩ => ⟨S8x512x512, .f32⟩
  | .local _ .vmem, ⟨5, _⟩ => ⟨S8x512x512, .f32⟩
  | .local _ .vmem, ⟨6, _⟩ => ⟨S8x512, .f32⟩
  | .local _ .vmem, ⟨7, _⟩ => ⟨S8x512, .f32⟩
  | .local _ .vmem, ⟨8, _⟩ => ⟨S8x512x512, .f32⟩
  | .local _ .vmem, ⟨9, _⟩ => ⟨S8x512x512, .f32⟩
  | _, _ => ⟨S64x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x1024_S8x512x1024_0_0_0 : ∀ a, (![0, 0, 0] : Fin 3 → Nat) a + S8x512x1024.size a ≤ S8x512x1024.size a
  h_S8x512x1024 : 0 < S8x512x1024.numel
  reduces_S8x512x1024_S8x512 : S8x512x1024.Reduces [2] S8x512
  transposes_S64x512_S512x64_1_0 : S64x512.Transposes [1, 0] S512x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  transposes_S512x64_S64x512_1_0 : S512x64.Transposes [1, 0] S64x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  shapeCasts_S8x512_S8x512x1 : S8x512.ShapeCasts S8x512x1
  inb_S8x512x512_S8x512x512_0_0_0 : ∀ a, (![0, 0, 0] : Fin 3 → Nat) a + S8x512x512.size a ≤ S8x512x512.size a
  h_S8x512x512 : 0 < S8x512x512.numel
  broadcasts_S8x512x1_S8x512x512 : S8x512x1.Broadcasts S8x512x512
  dot_S64x512_S512x64_S64x64_1_0_0_1_n_n_wf : DotDims.WF S64x512 S512x64 S64x64 [1] [0] [0] [1] [] []
  dot_S64x64_S64x512_S64x512_1_0_0_1_n_n_wf : DotDims.WF S64x64 S64x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1024.size a ≤ S64x512x4096.size a
  hwx0_0 : ∀ i : grid0.Coords, EltTy.bits .f32 = 32 ∨ (Rect.block (s := S64x512x4096) S8x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S64x512.size a
  hwx0_1 : ∀ i : grid0.Coords, EltTy.bits .f32 = 32 ∨ (Rect.block (s := S64x512) S8x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x512.size a ≤ S64x512x4096.size a
  hwx1_0 : ∀ i : grid1.Coords, EltTy.bits .f32 = 32 ∨ (Rect.block (s := S64x512x4096) S8x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S64x512.size a
  hwx1_1 : ∀ i : grid1.Coords, EltTy.bits .f32 = 32 ∨ (Rect.block (s := S64x512) S8x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512x512.size a ≤ S64x512x4096.size a
  hwx1_2 : ∀ i : grid1.Coords, EltTy.bits .f32 = 32 ∨ (Rect.block (s := S64x512x4096) S8x512x512.size (cc1_transform_2 i) (hinb1_2 i)).WholeWords (EltTy.packing .f32)

variable [Facts₀]

def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf

abbrev win0_0 : Pipeline.Window sig grid0 :=
  Pipeline.Window.ofSpec (Memref.whole main_arg0) S8x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S8x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x512x4096 : Shape := ⟨3, ![64, 512, 4096]⟩
abbrev S64x512 : Shape := ⟨2, ![64, 512]⟩
abbrev S64 : Shape := ⟨1, ![64]⟩
abbrev S512x64 : Shape := ⟨2, ![512, 64]⟩
abbrev S512 : Shape := ⟨1, ![512]⟩
abbrev S_ : Shape := ⟨0, ![]⟩
abbrev S64x64 : Shape := ⟨2, ![64, 64]⟩
abbrev S1x64 : Shape := ⟨2, ![1, 64]⟩
abbrev S1x512 : Shape := ⟨2, ![1, 512]⟩
abbrev S64x512x1 : Shape := ⟨3, ![64, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x512x4096, .f32⟩
  | .hbm, ⟨1, _⟩ => ⟨S64x512, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S512x64, .f32⟩
  | .hbm, ⟨11, _⟩ => ⟨S64x64, .f32⟩
  | .hbm, ⟨12, _⟩ => ⟨S1x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x512, .f32⟩
  | .hbm, ⟨19, _⟩ => ⟨S64x512, .f32⟩
  | .hbm, ⟨20, _⟩ => ⟨S1x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512x1, .f32⟩
  | .hbm, ⟨32, _⟩ => ⟨S64x512x4096, .f32⟩
  | .hbm, ⟨33, _⟩ => ⟨S64x512x4096, .f32⟩
  | _, _ => ⟨S64x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x512x4096_S64x512_d2 : S64x512x4096.ReducesTo [2] S64x512
  h_S_ : 0 < S_.numel
  bcast_S_S64x512 : S_.BroadcastsInDim S64x512 (![] : Fin 0 → Fin S64x512.rank)
  transposes_S64x512_S512x64_1_0 : S64x512.Transposes [1, 0] S512x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  transposes_S512x64_S64x512_1_0 : S512x64.Transposes [1, 0] S64x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x512x1_0_1 : S64x512.BroadcastsInDim S64x512x1 (![0, 1] : Fin 2 → Fin S64x512x1.rank)
  bcast_S64x512x1_S64x512x4096_0_1_2 : S64x512x1.BroadcastsInDim S64x512x4096 (![0, 1, 2] : Fin 3 → Fin S64x512x4096.rank)
  dot_S64x512_S512x64_S64x64_1_0_0_1_n_n_wf : DotDims.WF S64x512 S512x64 S64x64 [1] [0] [0] [1] [] []
  dot_S64x64_S64x512_S64x512_1_0_0_1_n_n_wf : DotDims.WF S64x64 S64x512 S64x512 [1] [0] [0] [1] [] []

variable [Facts₀]

def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf

class Facts : Prop extends Facts₀ where

variable [Facts]
-- ==== Proof.Spec.lean ====
/-
  What both programs compute, as one function of the five argument arrays.

  x is a [64, 512, 4096] array. Its squeeze is the [64, 512] array of the means of its rows along the last axis:
  (0 + the sum of the row's 4096 entries) / 4096. The gate is the excitation applied to the squeeze — a dense layer
  with weights W1 and bias b1, a clamp at zero from below, a dense layer with W2 and b2, and the logistic
  1 / (1 + exp (−·)) — a [64, 512] array again. The result multiplies every entry x(b, c, t) by the gate's entry (b, c).

  The excitation is the same list of operations in both programs, so it is kept as ONE function of the squeeze and the
  four parameter arrays and is never opened: all that is ever needed of it is that equal squeezes give equal gates.
-/
import proofs.«167996_j15771119911511_2_alg».proof.Proof.Gen.KernelIdeal
import Idealize.ShloMosaic.Lib.ValueIdx
import Idealize.ShloMosaic.PureOps.Ideal

noncomputable section

namespace Cert.SE

open Idealize.ShloMosaic Idealize.ShloMosaic.ValueIdx
open Cert.KernelIdeal Cert.KernelIdeal.Facts₀

/-- The excitation of a squeeze sq: logistic (relu (sq · W1ᵀ + b1) · W2ᵀ + b2), as the host operations spell it. -/
def gate (sq W1 : FVec Ideal S64x512 .f32) (b1 : FVec Ideal S64 .f32) (W2 : FVec Ideal S512x64 .f32)
    (b2 : FVec Ideal S512 .f32) : FVec Ideal S64x512 .f32 :=
  Host.divf (F := Ideal) (broadcastInDim S64x512 ![] bcast_S_S64x512 (constant (F := Ideal) S_ .f32 0x3F800000#32))
    (addf (broadcastInDim S64x512 ![] bcast_S_S64x512 (constant (F := Ideal) S_ .f32 0x3F800000#32))
      (Host.exp (F := Ideal) (Host.negf (F := Ideal) (addf
        (Host.dotGeneral (F := Ideal) dot_S64x64_S64x512_S64x512_1_0_0_1_n_n none
          (maximumf (addf
              (Host.dotGeneral (F := Ideal) dot_S64x512_S512x64_S64x64_1_0_0_1_n_n none sq
                (transpose S512x64 [1, 0] W1 transposes_S64x512_S512x64_1_0))
              (broadcastInDim S64x64 ![0, 1] bcast_S1x64_S64x64_0_1 (broadcastInDim S1x64 ![1] bcast_S64_S1x64_1 b1)))
            (broadcastInDim S64x64 ![] bcast_S_S64x64 (constant (F := Ideal) S_ .f32 0x00000000#32)))
          (transpose S64x512 [1, 0] W2 transposes_S512x64_S64x512_1_0))
        (broadcastInDim S64x512 ![0, 1] bcast_S1x512_S64x512_0_1 (broadcastInDim S1x512 ![1] bcast_S512_S1x512_1 b2))))))

/-- The row (b, c) an entry (b, c, t) lies in. -/
def rowOf (i : S64x512x4096.Idx) : S64x512.Idx :=
  ix2 (⟨(i 0).val, (i 0).isLt⟩ : Fin 64) (⟨(i 1).val, (i 1).isLt⟩ : Fin 512)

/-- Entry t of row (b, c). -/
def cell (p : S64x512.Idx) (t : Fin 4096) : S64x512x4096.Idx :=
  ix3 (⟨(p 0).val, (p 0).isLt⟩ : Fin 64) (⟨(p 1).val, (p 1).isLt⟩ : Fin 512) t

/-- The squeeze: each row's mean, the whole row summed onto zero and divided by 4096. -/
def squeeze (x : FVec Ideal S64x512x4096 .f32) : FVec Ideal S64x512 .f32 :=
  fun p => Ideal.div ((0 : EReal) + ∑ t : Fin 4096, x (cell p t)) (Ideal.ofBits .f32 0x45800000#32)

/-- The result: every entry of x times the gate's entry of its row. -/
def G (x : FVec Ideal S64x512x4096 .f32) (W1 : FVec Ideal S64x512 .f32) (b1 : FVec Ideal S64 .f32)
    (W2 : FVec Ideal S512x64 .f32) (b2 : FVec Ideal S512 .f32) : FVec Ideal S64x512x4096 .f32 :=
  fun i => x i * gate (squeeze x) W1 b1 W2 b2 (rowOf i)

end Cert.SE

end
-- ==== Proof.LibSumTiles.lean ====
/-
  A sum over Fin (a * b) taken tile by tile: the sum over the a tiles of the sum over the b positions inside a tile, position
  (j, i) standing for the index j * b + i. What joins a reduction a kernel accumulates block by block along a grid axis with the
  one whole reduction of a reference. Stated over any commutative additive monoid, so also over the extended reals.
-/
import Mathlib.Algebra.BigOperators.Fin
import Mathlib.Logic.Equiv.Fin.Basic

namespace Cert.LibSumTiles

/-- Index j * b + i of tile j, position i. -/
def tileIx {a b : ℕ} (j : Fin a) (i : Fin b) : Fin (a * b) :=
  ⟨j.val * b + i.val, by
    have hj := j.isLt; have hi := i.isLt
    have h1 : j.val * b + i.val < (j.val + 1) * b := by rw [Nat.add_mul, Nat.one_mul]; omega
    exact lt_of_lt_of_le h1 (Nat.mul_le_mul_right b hj)⟩

@[simp] theorem tileIx_val {a b : ℕ} (j : Fin a) (i : Fin b) : (tileIx j i).val = j.val * b + i.val := rfl

/-- The whole sum is the sum of the tiles' sums. -/
theorem sum_tiles {M : Type} [AddCommMonoid M] {a b : ℕ} (f : Fin (a * b) → M) :
    ∑ q : Fin (a * b), f q = ∑ j : Fin a, ∑ i : Fin b, f (tileIx j i) := by
  rw [← Equiv.sum_comp (finProdFinEquiv (m := a) (n := b)) f, Fintype.sum_prod_type]
  refine Finset.sum_congr rfl fun j _ => Finset.sum_congr rfl fun i _ => congrArg f (Fin.ext ?_)
  simp [finProdFinEquiv, tileIx, Nat.mul_comm, Nat.add_comm]

end Cert.LibSumTiles
-- ==== Proof.MeanLaw.lean ====
/-
  The law that joins the two ways of taking a row's mean.

  A row of 4096 real numbers is cut into four tiles of 1024. One side adds, starting from zero, each tile's sum
  multiplied by 1/4096; the other divides the sum of the whole row (added to zero) by 4096. Over the real numbers
  these agree by distributivity: (s₀ + s₁ + s₂ + s₃) / 4096 = s₀/4096 + s₁/4096 + s₂/4096 + s₃/4096. Over the extended
  reals distributivity fails at the infinities, so the law is stated for rows all of whose entries are (images of) real
  numbers; the two float words involved are exactly 4096 = 2¹² and 1/4096 = 2⁻¹².
-/
import Mathlib
import Idealize.ShloMosaic.PureOps.Ideal
import Idealize.ShloMosaic.PureOps.Ideal.Laws
import proofs.«167996_j15771119911511_2_alg».proof.Proof.LibSumTiles

noncomputable section

namespace Cert.SE.MeanLaw

open Idealize.ShloMosaic Cert.LibSumTiles

/-- The word 0x45800000 denotes 4096. -/
theorem word_4096 : Ideal.ofBits .f32 0x45800000#32 = ((4096 : ℝ) : EReal) := by
  simp [Ideal.ofBits, Ideal.ieee, -EReal.coe_mul]; norm_num

/-- The word 0x39800000 denotes 1/4096. -/
theorem word_inv4096 : Ideal.ofBits .f32 0x39800000#32 = ((1 / 4096 : ℝ) : EReal) := by
  simp [Ideal.ofBits, Ideal.ieee, -EReal.coe_mul]; norm_num

/-- The image of a finite sum of real numbers is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Four tile sums, each scaled by 1/4096 and added in turn to zero, make the whole row's sum divided by 4096. -/
theorem mean_law (f : Fin 4096 → EReal) (hf : ∀ t, ∃ r : ℝ, f t = (r : EReal)) :
    ((((0 : EReal) + (∑ l : Fin 1024, f (tileIx (a := 4) (b := 1024) 0 l)) * Ideal.ofBits .f32 0x39800000#32)
        + (∑ l : Fin 1024, f (tileIx (a := 4) (b := 1024) 1 l)) * Ideal.ofBits .f32 0x39800000#32)
        + (∑ l : Fin 1024, f (tileIx (a := 4) (b := 1024) 2 l)) * Ideal.ofBits .f32 0x39800000#32)
        + (∑ l : Fin 1024, f (tileIx (a := 4) (b := 1024) 3 l)) * Ideal.ofBits .f32 0x39800000#32
      = Ideal.div (0 + ∑ t : Fin 4096, f t) (Ideal.ofBits .f32 0x45800000#32) := by
  choose r hr using hf
  obtain rfl : f = fun t => (r t : EReal) := funext hr
  have hs : ∀ j : Fin 4, ∑ l : Fin 1024, ((r (tileIx (a := 4) (b := 1024) j l) : ℝ) : EReal)
      = ((∑ l : Fin 1024, r (tileIx (a := 4) (b := 1024) j l) : ℝ) : EReal) := fun j => (coe_sum _ _).symm
  have ht : ∑ t : Fin 4096, ((r t : ℝ) : EReal) = ((∑ t : Fin 4096, r t : ℝ) : EReal) := (coe_sum _ _).symm
  rw [word_inv4096, word_4096, Ideal.div_coe (by norm_num : (4096 : ℝ) ≠ 0)]
  show ((((0 : EReal) + (∑ l : Fin 1024, ((r (tileIx (a := 4) (b := 1024) 0 l) : ℝ) : EReal)) * _)
        + (∑ l : Fin 1024, ((r (tileIx (a := 4) (b := 1024) 1 l) : ℝ) : EReal)) * _)
        + (∑ l : Fin 1024, ((r (tileIx (a := 4) (b := 1024) 2 l) : ℝ) : EReal)) * _)
        + (∑ l : Fin 1024, ((r (tileIx (a := 4) (b := 1024) 3 l) : ℝ) : EReal)) * _
      = (0 + ∑ t : Fin 4096, ((r t : ℝ) : EReal)) * _
  rw [hs 0, hs 1, hs 2, hs 3, ht, ← EReal.coe_zero]
  simp only [← EReal.coe_mul, ← EReal.coe_add]
  refine congrArg _ ?_
  rw [sum_tiles (a := 4) (b := 1024) r, Fin.sum_univ_four]
  ring

end Cert.SE.MeanLaw

end
-- ==== Proof.LibFiniteIsReal.lean ====
import Idealize.ShloMosaic.Lib.ReduceAll
import Idealize.ShloMosaic.Lib.ValueIdx
import Idealize.ShloMosaic.PureOps.Ideal

/-
  "Every entry is finite" read over the extended reals (any shape).

  A host predicate of the form  all(|x| < +∞)  — the absolute value taken entrywise, compared strictly with the splat
  of the word 0x7F800000, the comparisons folded by `and` from `true` into a scalar — holds exactly when no entry of
  x is +∞ or −∞, so when it holds every entry of x is (the image of) a real number:

  * word_inf                 — the word 0x7F800000 denotes +∞;
  * real_of_abs_lt_inf       — max a (−a) < +∞ makes a a real number;
  * all_real_of_all_finite   — the predicate, for an array of any shape reduced over any axes to a scalar, gives a real
                               number at every index.
-/

noncomputable section

namespace Cert.LibFiniteIsReal

open Idealize.ShloMosaic

/-- The word 0x7F800000 denotes +∞. -/
theorem word_inf : Ideal.ofBits .f32 0x7F800000#32 = (⊤ : EReal) := by
  simp [Ideal.ofBits, Ideal.ieee]

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  rw [word_inf] at h
  induction a using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

/-- If all(|x| < +∞) holds of an array x of any shape, every entry of x is a real number. -/
theorem all_real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1) :
    ∀ j, ∃ r : ℝ, x j = (r : EReal) :=
  fun j => real_of_abs_lt_inf _ (Host.reduce_andi_all _ _ hr h0 _ e j)

end Cert.LibFiniteIsReal

end
-- ==== Proof.Finite.lean ====
/-
  The precondition makes x real-valued.

  The precondition is the conjunction, over the five argument arrays, of "every entry has absolute value strictly below
  +∞". Its first conjunct says so of x; an extended real whose absolute value is below +∞ is (the image of) a real number.
  Only x's conjunct is used: the parameters enter both programs through the same excitation and are never opened.
-/
import proofs.«167996_j15771119911511_2_alg».proof.Pre_finite_inputs
import proofs.«167996_j15771119911511_2_alg».proof.Proof.LibFiniteIsReal
import Idealize.ShloMosaic.Lib.Affine
import Idealize.ShloMosaic.Lib.ValueIdx

noncomputable section

namespace Cert.SE.Finite

open Idealize.ShloMosaic Cert.Pre_finite_inputs

variable [Cert.Pre_finite_inputs.Facts]

/-- If the precondition holds of (x, W1, b1, W2, b2), every entry of x is a real number. -/
theorem x_real (x : FVec Ideal S64x512x4096 .f32) (W1 : FVec Ideal S64x512 .f32) (b1 : FVec Ideal S64 .f32)
    (W2 : FVec Ideal S512x64 .f32) (b2 : FVec Ideal S512 .f32)
    (h : Cert.Pre_finite_inputs.fn (F := Ideal) x W1 b1 W2 b2 = fun _ => 1#1) : ∀ j, ∃ r : ℝ, x j = (r : EReal) := by
  have h0 := congrFun h ValueIdx.ix0
  dsimp only [Cert.Pre_finite_inputs.fn, Cert.Pre_finite_inputs.fn_part1] at h0
  have h1 := (IntOp.andi_eq_one.mp h0).1
  have h2 := (IntOp.andi_eq_one.mp h1).1
  have h3 := (IntOp.andi_eq_one.mp h2).1
  have h4 := (IntOp.andi_eq_one.mp h3).1
  exact Cert.LibFiniteIsReal.all_real_of_all_finite x Facts.bcast_S_S64x512x4096 Facts.reducesTo_S64x512x4096_S_d0_1_2 Facts.h_S_ h4

end Cert.SE.Finite

end
-- ==== Proof.NamedRun.lean ====
/-
  The idealized kernel program's run with its result NAMED.

  The program is two kernel regions with a stretch of host operations between them. Every weakly fair execution of it
  terminates without a fault, and in the final state each buffer of the TensorCore that outlives a region holds the
  contents obtained by folding the program's segments over the launch memory: the first region's write-backs, then the
  host operations, then the second region's write-backs. Read at the result buffer this says: the result is what the
  second region's write-backs leave in its output array; read at the argument buffers: they end as launched.
-/
import proofs.«167996_j15771119911511_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives a region at the
    contents the fold of the segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer ends at what the second region's write-backs leave in its output array, and the five argument
    buffers end as launched. -/
theorem run_named : θ_run defs (onTc (τ := τ) (main (F := F))) ⟨m, fun _ => 0, ρ⟩ (fun r => ∀ c : Dev nD,
      r.2.mem ((c.tc : Thread nD τ).loc main_v18) = (dat1 (V4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v18 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)
    (run_all m ρ)

end Cert.KernelIdeal.Named

end
-- ==== Proof.MeanValue.lean ====
/-
  The first kernel region: the squeeze, accumulated block by block.

  The region's grid is 8 × 4; point number t is (t / 4, t % 4). At point (i, j) the body reads block (i, 0, j) of x —
  8 rows-of-channels × 512 channels × 1024 entries — and the [8, 512] output block (i, 0), which stays in place over
  the four points j = 0 … 3 and is written back after the last one. At j = 0 the body first stores zeros into the
  output block. Then, at every j, it adds to each entry (p, q) of the output block the sum of the 1024 entries of row
  (p, q) of the x block, multiplied by the word 0x39800000. So what is written back after point (i, 3) is, at (p, q),

      (((0 + s₀·k) + s₁·k) + s₂·k) + s₃·k,     sⱼ = the sum of entries 1024·j … 1024·j + 1023 of row (8·i + p, q) of x,

  its block of ONE whole-array function of x; the eight written-back blocks tile the [64, 512] output.
-/
import proofs.«167996_j15771119911511_2_alg».proof.Proof.Gen.KernelIdeal.Frame
import proofs.«167996_j15771119911511_2_alg».proof.Proof.Spec
import proofs.«167996_j15771119911511_2_alg».proof.Proof.LibSumTiles
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Mean

open Idealize.ShloMosaic Idealize.ShloMosaic.TcCoe Idealize.ShloMosaic.ValueIdx Idealize.SL.Sem
open Idealize.ShloMosaic.Pipeline (Dat)
open Cert.KernelIdeal Cert.KernelIdeal.Gen Cert.SE Cert.LibSumTiles

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case of the body leaves in the output block -/

section AnyValues
variable {F : FTy → Type} [FloatOps F]

/-- A point that is not the first of its run: the body leaves, in the output block holding xo, the accumulation step
    of xo with the x block — its one covering store's value, whose loads read the two whole buffers. -/
theorem out_B (c : Dev nD) (i : grid0.Coords) (a2 : Memref sig .tc .vmem S8x512x1024 .f32) (h2 : a2.IsWhole)
    (a3 : Memref sig .tc .vmem S8x512 .f32) (h3 : a3.IsWhole) (hc : ¬cond0_0 i) (x : Vec F S8x512x1024 .f32) (xo : Vec F S8x512 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  rw [View.canon_unit_zero hz2]
  simp only [View.readAt_eq_ld, h2.read_unread, h3.read_unread, View.ld_unit_zero (S := S8x512) hz2,
    View.ld_unit_zero (S := S8x512x1024) hz3]

/-- The first point of a run: the body stores the zero block, reads it back, and leaves the accumulation step of the
    zero block with the x block. -/
theorem out_A (c : Dev nD) (i : grid0.Coords) (a2 : Memref sig .tc .vmem S8x512x1024 .f32) (h2 : a2.IsWhole)
    (a3 : Memref sig .tc .vmem S8x512 .f32) (h3 : a3.IsWhole) (hc : cond0_0 i) (x : Vec F S8x512x1024 .f32) :
    out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S8x512) hz2, View.readCov_unit_zero (S := S8x512) _ hz2]
  simp only [View.readAt_eq_ld, h2.read_unread, View.ld_unit_zero (S := S8x512) hz2,
    View.ld_unit_zero (S := S8x512x1024) hz3]

end AnyValues

/-! ## The accumulation step at an entry, over the extended reals -/

/-- One step at entry (p, q): the accumulator's entry plus the row's sum times the scale word. -/
theorem step_ix (acc : Vec Ideal S8x512 .f32) (x : Vec Ideal S8x512x1024 .f32) (p : Fin 8) (q : Fin 512) :
    k0_pay2 acc x (ix2 p q) = acc (ix2 p q) + (∑ l : Fin 1024, x (ix3 p q l)) * Ideal.ofBits .f32 0x39800000#32 := by
  unfold k0_pay2
  show shapeCast S8x512 acc shapeCasts_S8x512_S8x512 (ix2 p q)
      + multiReduction (F := Ideal) .add [2] S8x512 x 0x00000000#32 reduces_S8x512x1024_S8x512 (.inl rfl) rfl (ix2 p q)
        * Ideal.ofBits .f32 0x39800000#32 = _
  rw [shapeCast_self]
  refine congrArg (fun z : EReal => acc (ix2 p q) + z * Ideal.ofBits .f32 0x39800000#32) ?_
  refine (Ideal.multiReduction_add_single x 0x00000000#32 reduces_S8x512x1024_S8x512 (.inl rfl) rfl (ix2 p q)).trans ?_
  exact Finset.sum_congr rfl fun l _ => congrArg x (funext fun a => Fin.ext (by
    match a with
    | ⟨0, _⟩ => rfl
    | ⟨1, _⟩ => rfl
    | ⟨2, _⟩ => rfl))

/-- The same at any entry of the block. -/
theorem step_apply (acc : Vec Ideal S8x512 .f32) (x : Vec Ideal S8x512x1024 .f32) (j : S8x512.Idx) :
    k0_pay2 acc x j = acc j + (∑ l : Fin 1024, x (ix3 (⟨(j 0).val, (j 0).isLt⟩ : Fin 8) (⟨(j 1).val, (j 1).isLt⟩ : Fin 512) l))
      * Ideal.ofBits .f32 0x39800000#32 := by
  obtain ⟨p, q, rfl⟩ : ∃ (p : Fin 8) (q : Fin 512), j = ix2 p q := ⟨j 0, j 1, eq_ix2 j⟩
  exact step_ix acc x p q

/-- The zero block is zero at every entry. -/
theorem zero_apply (j : S8x512.Idx) : k0_pay1 (F := Ideal) j = (0 : EReal) := by
  show Ideal.ofBits .f32 0x00000000#32 = 0
  exact Ideal.ofBits_zero_f32

/-- Four steps from the zero block, at an entry. -/
theorem chain4_apply (x0 x1 x2 x3 : Vec Ideal S8x512x1024 .f32) (j : S8x512.Idx) :
    k0_pay2 (k0_pay2 (k0_pay2 (k0_pay2 (k0_pay1 (F := Ideal)) x0) x1) x2) x3 j
      = ((((0 : EReal)
          + (∑ l : Fin 1024, x0 (ix3 (⟨(j 0).val, (j 0).isLt⟩ : Fin 8) (⟨(j 1).val, (j 1).isLt⟩ : Fin 512) l)) * Ideal.ofBits .f32 0x39800000#32)
          + (∑ l : Fin 1024, x1 (ix3 (⟨(j 0).val, (j 0).isLt⟩ : Fin 8) (⟨(j 1).val, (j 1).isLt⟩ : Fin 512) l)) * Ideal.ofBits .f32 0x39800000#32)
          + (∑ l : Fin 1024, x2 (ix3 (⟨(j 0).val, (j 0).isLt⟩ : Fin 8) (⟨(j 1).val, (j 1).isLt⟩ : Fin 512) l)) * Ideal.ofBits .f32 0x39800000#32)
          + (∑ l : Fin 1024, x3 (ix3 (⟨(j 0).val, (j 0).isLt⟩ : Fin 8) (⟨(j 1).val, (j 1).isLt⟩ : Fin 512) l)) * Ideal.ofBits .f32 0x39800000#32 := by
  rw [step_apply, step_apply, step_apply, step_apply, zero_apply]

/-! ## The whole-array function, and the region's run read against it -/

/-- The squeeze as the kernel takes it: per row, the four tile sums, each scaled, added in turn to zero. -/
def meanK (x : S64x512x4096.Idx → EReal) : S64x512.Idx → EReal := fun p =>
  ((((0 : EReal)
      + (∑ l : Fin 1024, x (cell p (tileIx (a := 4) (b := 1024) 0 l))) * Ideal.ofBits .f32 0x39800000#32)
      + (∑ l : Fin 1024, x (cell p (tileIx (a := 4) (b := 1024) 1 l))) * Ideal.ofBits .f32 0x39800000#32)
      + (∑ l : Fin 1024, x (cell p (tileIx (a := 4) (b := 1024) 2 l))) * Ideal.ofBits .f32 0x39800000#32)
      + (∑ l : Fin 1024, x (cell p (tileIx (a := 4) (b := 1024) 3 l))) * Ideal.ofBits .f32 0x39800000#32

/-- The index maps over the grid: the x window names block (t / 4, 0, t % 4), the output window block (t / 4, 0). -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 2) = t.val / 4 ∧ win0_1.index t (1 : Fin 2) = 0 :=
  (by decide +kernel : ∀ t : Fin grid0.N, _)

variable (V : (c : Dev nD) → (b : Ref sig .tc) → Buf (Elt Ideal) ((c : Thread nD τ).loc b))

/-- After a point that is not the first of its run the output block is one step on from the point before. -/
theorem step_B (c : Dev nD) (t : Fin cfg0.N) (h : ¬t.val % 4 = 0) :
    outsAt0 V c t.val t.isLt
      = k0_pay2 (outsAt0 V c (t.val - 1) (Nat.lt_of_le_of_lt (Nat.sub_le _ _) t.isLt)) (iblk0 V c 0 t) :=
  (outsAt0_B V c t h).trans (out_B c (grid0.coords t) (ms0_0 t) (hs0_0 t) (ms0_1 t) (hs0_1 t) _ (iblk0 V c 0 t) _)

/-- After the first point of a run it is one step on from the zero block. -/
theorem step_A (c : Dev nD) (t : Fin cfg0.N) (h : t.val % 4 = 0) :
    outsAt0 V c t.val t.isLt = k0_pay2 (k0_pay1 (F := Ideal)) (iblk0 V c 0 t) :=
  (outsAt0_A V c t h).trans (out_A c (grid0.coords t) (ms0_0 t) (hs0_0 t) (ms0_1 t) (hs0_1 t) _ (iblk0 V c 0 t))

/-- After the last point of a run it is four steps on from the zero block, over the run's four x blocks in order. -/
theorem outs_last (c : Dev nD) (t : Fin cfg0.N) (h3 : t.val % 4 = 3)
    (b1 : t.val - 1 < cfg0.N) (b2 : t.val - 1 - 1 < cfg0.N) (b3 : t.val - 1 - 1 - 1 < cfg0.N) :
    outsAt0 V c t.val t.isLt
      = k0_pay2 (k0_pay2 (k0_pay2 (k0_pay2 (k0_pay1 (F := Ideal)) (iblk0 V c 0 ⟨t.val - 1 - 1 - 1, b3⟩))
          (iblk0 V c 0 ⟨t.val - 1 - 1, b2⟩)) (iblk0 V c 0 ⟨t.val - 1, b1⟩)) (iblk0 V c 0 t) := by
  refine (step_B V c t (by omega)).trans (congrArg (fun z => k0_pay2 z (iblk0 V c 0 t)) ?_)
  refine (step_B V c ⟨t.val - 1, b1⟩ (by show ¬(t.val - 1) % 4 = 0; omega)).trans
    (congrArg (fun z => k0_pay2 z (iblk0 V c 0 ⟨t.val - 1, b1⟩)) ?_)
  refine (step_B V c ⟨t.val - 1 - 1, b2⟩ (by show ¬(t.val - 1 - 1) % 4 = 0; omega)).trans
    (congrArg (fun z => k0_pay2 z (iblk0 V c 0 ⟨t.val - 1 - 1, b2⟩)) ?_)
  exact step_A V c ⟨t.val - 1 - 1 - 1, b3⟩ (by show (t.val - 1 - 1 - 1) % 4 = 0; omega)

/-- Entry (p, q, l) of the x block at a point of tile position s is entry l of tile s of row P of x, when P is the
    row the output block's entry (p, q) sits at. -/
theorem blk_row (c : Dev nD) (t' : Fin cfg0.N) (s : Fin 4) (hs : t'.val % 4 = s.val) (P : S64x512.Idx) (p : Fin 8) (q : Fin 512)
    (hP0 : (P 0).val = t'.val / 4 * 8 + p.val) (hP1 : (P 1).val = q.val) (l : Fin 1024) :
    (iblk0 V c 0 t' (ix3 p q l) : EReal) = V c main_arg0 (cell P (tileIx (a := 4) (b := 1024) s l)) := by
  obtain ⟨e0, e1, e2, -, -⟩ := idx_facts t'
  show V c main_arg0 (((cfg0.win 0).blk t').view.emb (ix3 p q l)) = _
  refine congrArg (V c main_arg0) (funext fun a => Fin.ext ?_)
  match a with
  | ⟨0, _⟩ => show win0_0.index t' (0 : Fin 3) * 8 + 1 * p.val = (P 0).val; omega
  | ⟨1, _⟩ => show win0_0.index t' (1 : Fin 3) * 512 + 1 * q.val = (P 1).val; omega
  | ⟨2, _⟩ => show win0_0.index t' (2 : Fin 3) * 1024 + 1 * l.val = s.val * 1024 + l.val; omega

/-- What the last point of a run writes back is its block of the kernel's squeeze of x as the region finds it. -/
theorem flushed_eq (c : Dev nD) (t : Fin cfg0.N) (h3 : t.val % 4 = 3) :
    (dat0 V c).flushed 1 t = ((cfg0.win 1).blk t).view.read (Elt Ideal) (meanK (V c main_arg0)) := by
  have b1 : t.val - 1 < cfg0.N := Nat.lt_of_le_of_lt (Nat.sub_le _ _) t.isLt
  have b2 : t.val - 1 - 1 < cfg0.N := Nat.lt_of_le_of_lt (Nat.sub_le _ _) b1
  have b3 : t.val - 1 - 1 - 1 < cfg0.N := Nat.lt_of_le_of_lt (Nat.sub_le _ _) b2
  show (cfg0.win 1).cut (grid0.coords t) ((dat0 V c).after 1 t) = _
  rw [after0_1, outs_last V c t h3 b1 b2 b3]
  obtain ⟨-, -, -, e10, e11⟩ := idx_facts t
  funext j
  show k0_pay2 (k0_pay2 (k0_pay2 (k0_pay2 (k0_pay1 (F := Ideal)) (iblk0 V c 0 ⟨t.val - 1 - 1 - 1, b3⟩))
          (iblk0 V c 0 ⟨t.val - 1 - 1, b2⟩)) (iblk0 V c 0 ⟨t.val - 1, b1⟩)) (iblk0 V c 0 t) j
      = meanK (V c main_arg0) (((cfg0.win 1).blk t).view.emb j)
  refine (chain4_apply (iblk0 V c 0 ⟨t.val - 1 - 1 - 1, b3⟩) (iblk0 V c 0 ⟨t.val - 1 - 1, b2⟩) (iblk0 V c 0 ⟨t.val - 1, b1⟩)
    (iblk0 V c 0 t) j).trans ?_
  have hP0 : ((((cfg0.win 1).blk t).view.emb j) 0).val = t.val / 4 * 8 + (j 0).val := by
    show win0_1.index t (0 : Fin 2) * 8 + 1 * (j 0).val = _; omega
  have hP1 : ((((cfg0.win 1).blk t).view.emb j) 1).val = (j 1).val := by
    show win0_1.index t (1 : Fin 2) * 512 + 1 * (j 1).val = _; omega
  have hq0 : (t.val - 1 - 1 - 1) / 4 = t.val / 4 := by omega
  have hq1 : (t.val - 1 - 1) / 4 = t.val / 4 := by omega
  have hq2 : (t.val - 1) / 4 = t.val / 4 := by omega
  have s0 := fun l : Fin 1024 => blk_row V c ⟨t.val - 1 - 1 - 1, b3⟩ 0 (by show (t.val - 1 - 1 - 1) % 4 = 0; omega) (((cfg0.win 1).blk t).view.emb j)
    ⟨(j 0).val, (j 0).isLt⟩ ⟨(j 1).val, (j 1).isLt⟩ (by show _ = (t.val - 1 - 1 - 1) / 4 * 8 + (j 0).val; rw [hq0]; exact hP0) hP1 l
  have s1 := fun l : Fin 1024 => blk_row V c ⟨t.val - 1 - 1, b2⟩ 1 (by show (t.val - 1 - 1) % 4 = 1; omega) (((cfg0.win 1).blk t).view.emb j)
    ⟨(j 0).val, (j 0).isLt⟩ ⟨(j 1).val, (j 1).isLt⟩ (by show _ = (t.val - 1 - 1) / 4 * 8 + (j 0).val; rw [hq1]; exact hP0) hP1 l
  have s2 := fun l : Fin 1024 => blk_row V c ⟨t.val - 1, b1⟩ 2 (by show (t.val - 1) % 4 = 2; omega) (((cfg0.win 1).blk t).view.emb j)
    ⟨(j 0).val, (j 0).isLt⟩ ⟨(j 1).val, (j 1).isLt⟩ (by show _ = (t.val - 1) / 4 * 8 + (j 0).val; rw [hq2]; exact hP0) hP1 l
  have s3 := fun l : Fin 1024 => blk_row V c t 3 (by show t.val % 4 = 3; omega) (((cfg0.win 1).blk t).view.emb j)
    ⟨(j 0).val, (j 0).isLt⟩ ⟨(j 1).val, (j 1).isLt⟩ hP0 hP1 l
  simp only [s0, s1, s2, s3]
  rfl

/-- An entry of the output array is in point t's block iff each coordinate is in the block's range on its axis. -/
theorem mem_blk (t : Fin cfg0.N) (i : S64x512.Idx) :
    i ∈ ((cfg0.win 1).blk t).view.set ↔ ∀ a : Fin 2, win0_1.index t a * S8x512.size a ≤ (i a).val
      ∧ (i a).val < win0_1.index t a * S8x512.size a + S8x512.size a := by
  show i ∈ ((View.whole main_v0).slice (win0_1.rect t)).set ↔ _
  rw [View.set_slice_whole, Rect.mem_set_unit]
  exact Iff.rfl

/-- Every entry (b, c) of the output is in the block written back after point (b / 8, 3). -/
theorem cover (i : S64x512.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hN : cfg0.N = 32 := N_0
  refine ⟨⟨4 * ((i 0).val / 8) + 3, by rw [hN]; omega⟩, (flush0_1 _).mpr (by show (4 * ((i 0).val / 8) + 3) % 4 = 3; omega), ?_⟩
  rw [mem_blk]
  obtain ⟨-, -, -, e10, e11⟩ := idx_facts ⟨4 * ((i 0).val / 8) + 3, by rw [hN]; omega⟩
  intro a
  match a with
  | ⟨0, _⟩ =>
    show win0_1.index _ (0 : Fin 2) * 8 ≤ (i 0).val ∧ (i 0).val < win0_1.index _ (0 : Fin 2) * 8 + 8
    rw [e10]; show (4 * ((i 0).val / 8) + 3) / 4 * 8 ≤ (i 0).val ∧ (i 0).val < (4 * ((i 0).val / 8) + 3) / 4 * 8 + 8
    omega
  | ⟨1, _⟩ =>
    show win0_1.index _ (1 : Fin 2) * 512 ≤ (i 1).val ∧ (i 1).val < win0_1.index _ (1 : Fin 2) * 512 + 512
    rw [e11]; omega

/-- After the region the output array is the kernel's squeeze of x as the region found it. -/
theorem final (c : Dev nD) : (dat0 V c).arrAt 1 cfg0.N = meanK (V c main_arg0) :=
  (dat0 V c).arrAt_eq_of_cover 1 (meanK (V c main_arg0)) (fun t hf => flushed_eq V c t ((flush0_1 t).mp hf)) cover

end Cert.KernelIdeal.Mean

end
-- ==== Proof.HostMid.lean ====
/-
  Between the two kernel regions: the excitation, and what each region finds.

  The first region writes the squeeze array; the host operations between the regions compute the gate from it and from the
  four parameter arrays — the excitation, one function — and nothing else writes x or the parameters. So the second region
  finds x as launched, and finds as its gate operand the excitation of whatever the first region left in the squeeze array.
-/
import proofs.«167996_j15771119911511_2_alg».proof.Proof.Gen.KernelIdeal.Frame
import proofs.«167996_j15771119911511_2_alg».proof.Proof.Spec
import Idealize.ShloMosaic.Lib.StableHlo.Run

set_option maxRecDepth 16384

noncomputable section

namespace Cert.KernelIdeal.Mid

open Idealize.ShloMosaic Idealize.ShloMosaic.TcCoe Idealize.SL.Sem Idealize.ShloMosaic.StableHlo
open Cert.KernelIdeal Cert.KernelIdeal.Gen Cert.SE

variable (m : (ℓ : Loc nD τ sig) → Buf (Elt Ideal) ℓ) (ρ : Dev nD → PrngReg)

/-- The second region finds x as launched. -/
theorem x_at_scale (c : Dev nD) : V4 m ρ c main_arg0 = m ((c : Thread nD τ).loc main_arg0) :=
  (((W5_arr m ρ c 0).trans (((dat1 (V4 m ρ) c).arrAt_in 0 rfl _).trans (A_eq1 (V4 m ρ) c 0))).symm).trans (W5_main_arg0 m ρ c)

/-- After the first region the squeeze array holds what that region's write-backs leave. -/
theorem squeeze_at_mid (c : Dev nD) : V1 m ρ c main_v0 = (dat0 (V0 m ρ) c).arrAt 1 cfg0.N := W1_arr m ρ c 1

/-- After the first region the four parameter arrays are as launched. -/
theorem W1_at_mid (c : Dev nD) : V1 m ρ c main_arg1 = m ((c : Thread nD τ).loc main_arg1) := W1_of_ne m ρ c main_arg1 (by decide)
theorem b1_at_mid (c : Dev nD) : V1 m ρ c main_arg2 = m ((c : Thread nD τ).loc main_arg2) := W1_of_ne m ρ c main_arg2 (by decide)
theorem W2_at_mid (c : Dev nD) : V1 m ρ c main_arg3 = m ((c : Thread nD τ).loc main_arg3) := W1_of_ne m ρ c main_arg3 (by decide)
theorem b2_at_mid (c : Dev nD) : V1 m ρ c main_arg4 = m ((c : Thread nD τ).loc main_arg4) := W1_of_ne m ρ c main_arg4 (by decide)

/-- The second region finds, as its gate operand, the excitation of the squeeze array and the parameters as they stand
    after the first region: the host operations between the regions, read back. -/
theorem gate_at_scale (c : Dev nD) :
    V4 m ρ c main_v17 = gate (V1 m ρ c main_v0) (V1 m ρ c main_arg1) (V1 m ρ c main_arg2) (V1 m ρ c main_arg3) (V1 m ρ c main_arg4) := by
  show StableHlo.after hostOps1_2 (StableHlo.after hostOps1_1 (StableHlo.after hostOps1 (W1 m ρ c))) (Proc.devRef .tc main_v17) = _
  after_results
  rfl

end Cert.KernelIdeal.Mid

end
-- ==== Proof.ScaleValue.lean ====
/-
  The second kernel region: the channel-wise scale.

  The region's grid is 8 × 8. At point (i, j) the body multiplies block (i, 0, j) of x — 8 channels-rows × 512 × 512
  entries — by block (i, 0) of the gate, an [8, 512] array laid out as [8, 512, 1] and spread along the last axis, and
  stores the product as block (i, 0, j) of the output. So what point (i, j) writes back is its block of ONE whole-array
  function: entry (b, c, t) of x times entry (b, c) of the gate. The 64 blocks tile the output, so after the region
  the output array is that function, for whatever arrays x and the gate the region finds on entry.
-/
import proofs.«167996_j15771119911511_2_alg».proof.Proof.Gen.KernelIdeal.Frame
import proofs.«167996_j15771119911511_2_alg».proof.Proof.Spec
import Idealize.ShloMosaic.Lib.Pipeline.Value
import Idealize.ShloMosaic.Lib.ValueIdx

set_option maxRecDepth 16384

noncomputable section

namespace Cert.KernelIdeal.Scale

open Idealize.ShloMosaic Idealize.ShloMosaic.TcCoe Idealize.ShloMosaic.ValueIdx Idealize.SL.Sem
open Idealize.ShloMosaic.Pipeline (Dat)
open Cert.KernelIdeal Cert.KernelIdeal.Gen Cert.SE

/-- x scaled row by row: entry (b, c, t) of x times entry (b, c) of w. -/
def scaled (x : S64x512x4096.Idx → EReal) (w : S64x512.Idx → EReal) : S64x512x4096.Idx → EReal :=
  fun i => x i * w (rowOf i)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's product at entry (p, q, l) of the block: the x block's entry times the gate block's entry (p, q). -/
theorem pay_ix (w : Vec Ideal S8x512 .f32) (x : Vec Ideal S8x512x512 .f32) (p : Fin 8) (q : Fin 512) (l : Fin 512) :
    k1_pay1 w x (ix3 p q l) = x (ix3 p q l) * w (ix2 p q) := by
  unfold k1_pay1
  show x (ix3 p q l) * broadcastTo S8x512x512 (shapeCast S8x512x1 (shapeCast S8x512 w shapeCasts_S8x512_S8x512) shapeCasts_S8x512_S8x512x1)
      broadcasts_S8x512x1_S8x512x512 (ix3 p q l) = _
  refine congrArg (x (ix3 p q l) * ·) ?_
  refine (broadcastTo_apply _ broadcasts_S8x512x1_S8x512x512 (ix3 p q l) (ix3 p q (0 : Fin 1)) (fun a => ?_)).trans ?_
  · match a with
    | ⟨0, _⟩ => show p.val = if (8 : ℕ) = 1 then 0 else p.val; rw [if_neg (by decide)]
    | ⟨1, _⟩ => show q.val = if (512 : ℕ) = 1 then 0 else q.val; rw [if_neg (by decide)]
    | ⟨2, _⟩ => show (0 : ℕ) = if (1 : ℕ) = 1 then 0 else l.val; rw [if_pos rfl]
  refine (shapeCast_apply _ shapeCasts_S8x512_S8x512x1 (ix3 p q (0 : Fin 1)) (ix2 p q) ?_).trans ?_
  · rw [Shape.rowMajor_val_two, Shape.rowMajor_val_three]
    show p.val * 512 + q.val = (p.val * 512 + q.val) * 1 + 0
    omega
  rw [shapeCast_self]

/-- The same at any entry of the block. -/
theorem pay_apply (w : Vec Ideal S8x512 .f32) (x : Vec Ideal S8x512x512 .f32) (j : S8x512x512.Idx) :
    k1_pay1 w x j = x j * w (ix2 (⟨(j 0).val, (j 0).isLt⟩ : Fin 8) (⟨(j 1).val, (j 1).isLt⟩ : Fin 512)) := by
  obtain ⟨p, q, l, rfl⟩ : ∃ (p : Fin 8) (q : Fin 512) (l : Fin 512), j = ix3 p q l := ⟨j 0, j 1, j 2, eq_ix3 j⟩
  exact pay_ix w x p q l

/-- The index maps over the grid: the x window and the output window name the same block, (t / 8, 0, t % 8); the gate
    window names block (t / 8, 0). -/
theorem idx_facts : ∀ t : Fin cfg1.N,
    win1_0.index t (0 : Fin 3) = t.val / 8 ∧ win1_0.index t (1 : Fin 3) = 0 ∧ win1_0.index t (2 : Fin 3) = t.val % 8
    ∧ win1_1.index t (0 : Fin 2) = t.val / 8 ∧ win1_1.index t (1 : Fin 2) = 0
    ∧ win1_2.index t (0 : Fin 3) = t.val / 8 ∧ win1_2.index t (1 : Fin 3) = 0 ∧ win1_2.index t (2 : Fin 3) = t.val % 8 :=
  (by decide +kernel : ∀ t : Fin grid1.N, _)

variable (V : (c : Dev nD) → (b : Ref sig .tc) → Buf (Elt Ideal) ((c : Thread nD τ).loc b))

/-- What point t writes back is its block of x scaled by the gate, as the region finds the two arrays. -/
theorem flushed_eq (c : Dev nD) (t : Fin cfg1.N) :
    (dat1 V c).flushed 2 t = ((cfg1.win 2).blk t).view.read (Elt Ideal) (scaled (V c main_arg0) (V c main_v17)) := by
  show (cfg1.win 2).cut (grid1.coords t) ((dat1 V c).after 2 t) = _
  rw [after1_2]
  unfold out1_2
  rw [View.canon_unit_zero hz3]
  simp only [View.ld_unit_zero (S := S8x512x512) hz3, View.ld_unit_zero (S := S8x512) hz2]
  obtain ⟨e00, e01, e02, e10, e11, e20, e21, e22⟩ := idx_facts t
  funext j
  show k1_pay1 (iblk1 V c 1 t) (iblk1 V c 0 t) j = _
  refine (pay_apply (iblk1 V c 1 t) (iblk1 V c 0 t) j).trans ?_
  have h0 : ((cfg1.win 0).blk t).view.emb j = ((cfg1.win 2).blk t).view.emb j := by
    funext a; apply Fin.ext
    match a with
    | ⟨0, _⟩ => show win1_0.index t (0 : Fin 3) * 8 + 1 * (j 0).val = win1_2.index t (0 : Fin 3) * 8 + 1 * (j 0).val; omega
    | ⟨1, _⟩ => show win1_0.index t (1 : Fin 3) * 512 + 1 * (j 1).val = win1_2.index t (1 : Fin 3) * 512 + 1 * (j 1).val; omega
    | ⟨2, _⟩ => show win1_0.index t (2 : Fin 3) * 512 + 1 * (j 2).val = win1_2.index t (2 : Fin 3) * 512 + 1 * (j 2).val; omega
  have h1 : ((cfg1.win 1).blk t).view.emb (ix2 (⟨(j 0).val, (j 0).isLt⟩ : Fin 8) (⟨(j 1).val, (j 1).isLt⟩ : Fin 512))
      = rowOf (((cfg1.win 2).blk t).view.emb j) := by
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 512 + 1 * (j 1).val = win1_2.index t (1 : Fin 3) * 512 + 1 * (j 1).val; omega
  have hx : (iblk1 V c 0 t j : EReal) = V c main_arg0 (((cfg1.win 2).blk t).view.emb j) := by
    show V c main_arg0 (((cfg1.win 0).blk t).view.emb j) = _
    rw [h0]
  have hw : (iblk1 V c 1 t (ix2 (⟨(j 0).val, (j 0).isLt⟩ : Fin 8) (⟨(j 1).val, (j 1).isLt⟩ : Fin 512)) : EReal)
      = V c main_v17 (rowOf (((cfg1.win 2).blk t).view.emb j)) := by
    show V c main_v17 (((cfg1.win 1).blk t).view.emb (ix2 (⟨(j 0).val, (j 0).isLt⟩ : Fin 8) (⟨(j 1).val, (j 1).isLt⟩ : Fin 512))) = _
    rw [h1]
  exact congrArg₂ (fun a b : EReal => a * b) hx hw

/-- An entry of the output array is in point t's block iff each coordinate is in the block's range on its axis. -/
theorem mem_blk (t : Fin cfg1.N) (i : S64x512x4096.Idx) :
    i ∈ ((cfg1.win 2).blk t).view.set ↔ ∀ a : Fin 3, win1_2.index t a * S8x512x512.size a ≤ (i a).val
      ∧ (i a).val < win1_2.index t a * S8x512x512.size a + S8x512x512.size a := by
  show i ∈ ((View.whole main_v18).slice (win1_2.rect t)).set ↔ _
  rw [View.set_slice_whole, Rect.mem_set_unit]
  exact Iff.rfl

/-- Every entry (b, c, t) of the output is in the block of point (b / 8, t / 512). -/
theorem cover (i : S64x512x4096.Idx) :
    ∃ t : Fin cfg1.N, (cfg1.win 2).flush t = true ∧ i ∈ ((cfg1.win 2).blk t).view.set := by
  have hi0 : (i 0).val < 64 := (i 0).isLt
  have hi1 : (i 1).val < 512 := (i 1).isLt
  have hi2 : (i 2).val < 4096 := (i 2).isLt
  have hN : cfg1.N = 64 := N_1
  refine ⟨⟨8 * ((i 0).val / 8) + (i 2).val / 512, by rw [hN]; omega⟩, flush1_2 _, ?_⟩
  rw [mem_blk]
  obtain ⟨-, -, -, -, -, e20, e21, e22⟩ := idx_facts ⟨8 * ((i 0).val / 8) + (i 2).val / 512, by rw [hN]; omega⟩
  intro a
  match a with
  | ⟨0, _⟩ =>
    show win1_2.index _ (0 : Fin 3) * 8 ≤ (i 0).val ∧ (i 0).val < win1_2.index _ (0 : Fin 3) * 8 + 8
    rw [e20]; show (8 * ((i 0).val / 8) + (i 2).val / 512) / 8 * 8 ≤ (i 0).val ∧ (i 0).val < (8 * ((i 0).val / 8) + (i 2).val / 512) / 8 * 8 + 8
    omega
  | ⟨1, _⟩ =>
    show win1_2.index _ (1 : Fin 3) * 512 ≤ (i 1).val ∧ (i 1).val < win1_2.index _ (1 : Fin 3) * 512 + 512
    rw [e21]; omega
  | ⟨2, _⟩ =>
    show win1_2.index _ (2 : Fin 3) * 512 ≤ (i 2).val ∧ (i 2).val < win1_2.index _ (2 : Fin 3) * 512 + 512
    rw [e22]; show (8 * ((i 0).val / 8) + (i 2).val / 512) % 8 * 512 ≤ (i 2).val ∧ (i 2).val < (8 * ((i 0).val / 8) + (i 2).val / 512) % 8 * 512 + 512
    omega

/-- After the region the output array is x scaled by the gate, as the region found them. -/
theorem final (c : Dev nD) : (dat1 V c).arrAt 2 cfg1.N = scaled (V c main_arg0) (V c main_v17) :=
  (dat1 V c).arrAt_eq_of_cover 2 (scaled (V c main_arg0) (V c main_v17)) (fun t _ => flushed_eq V c t) cover

end Cert.KernelIdeal.Scale

end
-- ==== Proof.RefTerm.lean ====
/-
  The reference program computes G.

  The reference takes the squeeze by one reduction of x along its last axis from zero and one division by 4096, runs the
  excitation, lays the [64, 512] gate out as [64, 512, 1] and then along the 4096 entries of each row, and multiplies.
  Read at an entry (b, c, t) this is x(b, c, t) times the gate at (b, c).
-/
import proofs.«167996_j15771119911511_2_alg».proof.Proof.Gen.ReferenceIdeal.Read
import proofs.«167996_j15771119911511_2_alg».proof.Proof.Spec

noncomputable section

namespace Cert.SE.Ref

open Idealize.ShloMosaic Idealize.ShloMosaic.ValueIdx Cert.SE
open Cert.ReferenceIdeal Cert.ReferenceIdeal.Read

/-- The reference's division of the row sums by 4096 is the squeeze. -/
theorem squeeze_ref (x : (⟨S64x512x4096, .f32⟩ : BufTy).Contents (Elt Ideal)) :
    val_main_v2 (F := Ideal) x = squeeze x := by
  funext p
  have e : ∀ k : Fin 4096, idx_main_v0 p k = cell p k := fun k =>
    funext fun a => Fin.ext (by match a with | ⟨0, _⟩ => rfl | ⟨1, _⟩ => rfl | ⟨2, _⟩ => rfl)
  rw [val_main_v2_apply, val_main_v0_apply, val_main_v1_apply, val_main_cst_0_apply, val_main_cst_apply]
  simp only [e, Ideal.hostDivf_def, Ideal.ofBits_def, Ideal.ofBits_zero_f32]
  rfl

/-- The reference's gate is the excitation of its squeeze: the same operations, spelled in the reference's names. -/
theorem gate_ref (x0 : (⟨S64x512x4096, .f32⟩ : BufTy).Contents (Elt Ideal)) (x1 : (⟨S64x512, .f32⟩ : BufTy).Contents (Elt Ideal))
    (x2 : (⟨S64, .f32⟩ : BufTy).Contents (Elt Ideal)) (x3 : (⟨S512x64, .f32⟩ : BufTy).Contents (Elt Ideal))
    (x4 : (⟨S512, .f32⟩ : BufTy).Contents (Elt Ideal)) :
    val_main_v19 (F := Ideal) x0 x1 x2 x3 x4 = gate (val_main_v2 (F := Ideal) x0) x1 x2 x3 x4 := rfl

/-- The reference's result is G of its arguments. -/
theorem result_ref (x0 : (⟨S64x512x4096, .f32⟩ : BufTy).Contents (Elt Ideal)) (x1 : (⟨S64x512, .f32⟩ : BufTy).Contents (Elt Ideal))
    (x2 : (⟨S64, .f32⟩ : BufTy).Contents (Elt Ideal)) (x3 : (⟨S512x64, .f32⟩ : BufTy).Contents (Elt Ideal))
    (x4 : (⟨S512, .f32⟩ : BufTy).Contents (Elt Ideal)) :
    val_main_v22 (F := Ideal) x0 x1 x2 x3 x4 = G x0 x1 x2 x3 x4 := by
  funext i
  have hi : idx_main_v20 (idx_main_v21 i) = rowOf i :=
    funext fun a => Fin.ext (by match a with | ⟨0, _⟩ => rfl | ⟨1, _⟩ => rfl)
  rw [val_main_v22_apply, val_main_v21_apply, val_main_v20_apply, gate_ref, squeeze_ref, hi]
  rfl

end Cert.SE.Ref

end
-- ==== Proof.lean ====
/-
  A squeeze-and-excitation block, as a kernel program and as a plain reference: the two compute the same function.

  x is [64, 512, 4096]. The squeeze is the [64, 512] array of row means along the last axis; the gate is the excitation of the
  squeeze (two dense layers with a clamp between, then the logistic); the result is x with every row scaled by its gate.
  The reference takes each mean as (0 + the row's sum) / 4096. The kernel program takes it in a first region that walks the
  row in four tiles of 1024, adding each tile's sum times 2⁻¹² onto an accumulator that starts at zero; computes the gate
  by the same host operations; and scales in a second region, block by block.

  The two means agree because 4096 = 2¹² exactly and (s₀ + s₁ + s₂ + s₃) / 4096 = s₀·2⁻¹² + s₁·2⁻¹² + s₂·2⁻¹² + s₃·2⁻¹²
  over the real numbers — distributivity, which over the extended reals needs the row's entries to be real numbers: this
  is where the precondition (every input finite) is used, and only for x. Equal squeezes give equal gates, the
  excitation being one function; and both programs multiply entry (b, c, t) of x by entry (b, c) of the gate.

  The frames: each program terminates without a fault from every memory and leaves its arguments as launched. Nothing
  was rewritten between the kernel program and its idealization, so that claim is trivial.
-/
import proofs.«167996_j15771119911511_2_alg».proof.Defs
import proofs.«167996_j15771119911511_2_alg».proof.Proof.Gen.Kernel
import proofs.«167996_j15771119911511_2_alg».proof.Proof.Gen.Kernel.Frame
import proofs.«167996_j15771119911511_2_alg».proof.Proof.Gen.KernelIdeal
import proofs.«167996_j15771119911511_2_alg».proof.Proof.Gen.KernelIdeal.Frame
import proofs.«167996_j15771119911511_2_alg».proof.Proof.Gen.ReferenceIdeal
import proofs.«167996_j15771119911511_2_alg».proof.Proof.Gen.ReferenceIdeal.Run
import proofs.«167996_j15771119911511_2_alg».proof.Proof.Gen.ReferenceIdeal.Read
import proofs.«167996_j15771119911511_2_alg».proof.Proof.Gen.Pre_finite_inputs
import proofs.«167996_j15771119911511_2_alg».proof.Proof.Spec
import proofs.«167996_j15771119911511_2_alg».proof.Proof.MeanLaw
import proofs.«167996_j15771119911511_2_alg».proof.Proof.Finite
import proofs.«167996_j15771119911511_2_alg».proof.Proof.NamedRun
import proofs.«167996_j15771119911511_2_alg».proof.Proof.MeanValue
import proofs.«167996_j15771119911511_2_alg».proof.Proof.HostMid
import proofs.«167996_j15771119911511_2_alg».proof.Proof.ScaleValue
import proofs.«167996_j15771119911511_2_alg».proof.Proof.RefTerm
import Idealize.ShloMosaic.Adequacy
import Idealize.ShloMosaic.Init

noncomputable section

namespace Cert.Proof

open Idealize.ShloMosaic Idealize.ShloMosaic.TcCoe Idealize.SL.Sem
open Cert.SE

/-- On a real-valued x the kernel's squeeze (four scaled tile sums added to zero) is the squeeze (the row sum over 4096). -/
theorem meanK_eq (x : Cert.KernelIdeal.S64x512x4096.Idx → EReal) (hx : ∀ j, ∃ r : ℝ, x j = (r : EReal)) :
    Cert.KernelIdeal.Mean.meanK x = squeeze x :=
  funext fun p => Cert.SE.MeanLaw.mean_law (fun t => x (cell p t)) (fun t => hx _)

section Kernel
open Cert.KernelIdeal Cert.KernelIdeal.Gen

/-- What the second region leaves in the result array is G of the launched arguments, when x is real-valued: the region
    scales the x it finds by the gate it finds; it finds x as launched and the gate as the excitation of what the first
    region left; the first region left the kernel's squeeze of x; and that is the squeeze. -/
theorem kernel_result (m : (ℓ : Loc nD τ sig) → Buf (Elt Ideal) ℓ) (ρ : Dev nD → PrngReg) (c : Dev nD)
    (hx : ∀ j, ∃ r : ℝ, m ((c.tc : Thread nD τ).loc main_arg0) j = (r : EReal)) :
    (dat1 (V4 m ρ) c).arrAt 2 cfg1.N
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  have hsq : V1 m ρ c main_v0 = squeeze (m ((c.tc : Thread nD τ).loc main_arg0)) :=
    ((Cert.KernelIdeal.Mid.squeeze_at_mid m ρ c).trans (Cert.KernelIdeal.Mean.final (V0 m ρ) c)).trans (meanK_eq _ hx)
  have hg : V4 m ρ c main_v17
      = gate (squeeze (m ((c.tc : Thread nD τ).loc main_arg0))) (m ((c.tc : Thread nD τ).loc main_arg1)) (m ((c.tc : Thread nD τ).loc main_arg2))
          (m ((c.tc : Thread nD τ).loc main_arg3)) (m ((c.tc : Thread nD τ).loc main_arg4)) := by
    rw [Cert.KernelIdeal.Mid.gate_at_scale, hsq, Cert.KernelIdeal.Mid.W1_at_mid, Cert.KernelIdeal.Mid.b1_at_mid,
      Cert.KernelIdeal.Mid.W2_at_mid, Cert.KernelIdeal.Mid.b2_at_mid]
  rw [Cert.KernelIdeal.Scale.final (V4 m ρ) c, Cert.KernelIdeal.Mid.x_at_scale, hg]
  rfl

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with G of the arguments in their result arrays, and their arguments unchanged. -/
theorem algebraic : Cert.algebraic_KernelIdeal_ReferenceIdeal := by
  intro m ρ m' ρ' hpre hagree
  have hx : ∀ c : Dev Cert.KernelIdeal.nD, ∀ j, ∃ r : ℝ,
      m ((c.tc : Thread Cert.KernelIdeal.nD Cert.KernelIdeal.τ).loc Cert.KernelIdeal.main_arg0) j = (r : EReal) :=
    fun c => Cert.SE.Finite.x_real _ _ _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (kernel_result m ρ c (hx c)), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v22_eq (F := Ideal) _ _ _ _ _)).trans ?_
    rw [Cert.SE.Ref.result_ref, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
